-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S50000x128 .f32) (main_arg2 : IVec S2x800000 32) (main_arg3 : FVec F S384x128 .f32) (main_arg4 : FVec F S384 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S10000x128 : Shape := ⟨2, ![10000, 128]⟩
abbrev S50000 : Shape := ⟨1, ![50000]⟩
abbrev S50000x1 : Shape := ⟨2, ![50000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 48
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S384x128, .f32⟩
  | .hbm, ⟨4, _⟩ => ⟨S384, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S1x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S384x128_S128x128_256_0 : S384x128.Slices ![256, 0] S128x128
  slices_S384_S128_256 : S384.Slices ![256] S128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S10000x128_S128x128_S10000x128_1_0_0_1_n_n_wf : DotDims.WF S10000x128 S128x128 S10000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .f32 = 32 ∨ (Rect.block (s := S800000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v10) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S800000x4x32 : Shape := ⟨3, ![800000, 4, 32]⟩
abbrev S800000x4 : Shape := ⟨2, ![800000, 4]⟩
abbrev S800000x4x1 : Shape := ⟨3, ![800000, 4, 1]⟩
abbrev S50000 : Shape := ⟨1, ![50000]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S384x128, .f32⟩
  | 4 => ⟨S384, .f32⟩
  | 5 => ⟨S128x128, .f32⟩
  | 6 => ⟨S128, .f32⟩
  | 7 => ⟨S128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S128x128, .f32⟩
  | 32 => ⟨S128x128, .f32⟩
  | 33 => ⟨S128x128, .f32⟩
  | 34 => ⟨S128, .f32⟩
  | 35 => ⟨S128, .f32⟩
  | 36 => ⟨S128, .f32⟩
  | 37 => ⟨S128x128, .f32⟩
  | 38 => ⟨S800000x128, .f32⟩
  | 39 => ⟨S1x128, .f32⟩
  | 40 => ⟨S800000x128, .f32⟩
  | 41 => ⟨S800000x128, .f32⟩
  | 42 => ⟨S800000x4x32, .f32⟩
  | 43 => ⟨S128x128, .f32⟩
  | 44 => ⟨S800000x128, .f32⟩
  | 45 => ⟨S1x128, .f32⟩
  | 46 => ⟨S800000x128, .f32⟩
  | 47 => ⟨S800000x128, .f32⟩
  | 48 => ⟨S800000x4x32, .f32⟩
  | 49 => ⟨S128x128, .f32⟩
  | 50 => ⟨S800000x128, .f32⟩
  | 51 => ⟨S1x128, .f32⟩
  | 52 => ⟨S800000x128, .f32⟩
  | 53 => ⟨S800000x128, .f32⟩
  | 54 => ⟨S800000x4x32, .f32⟩
  | 55 => ⟨S800000x4x32, .f32⟩
  | 56 => ⟨S_, .f32⟩
  | 57 => ⟨S800000x4, .f32⟩
  | 58 => ⟨S800000x4x1, .f32⟩
  | 59 => ⟨S_, .f32⟩
  | 60 => ⟨S_, .f32⟩
  | 61 => ⟨S800000x4x1, .f32⟩
  | 62 => ⟨S800000x4x1, .f32⟩
  | 63 => ⟨S_, .f32⟩
  | 64 => ⟨S800000x4, .f32⟩
  | 65 => ⟨S_, .f32⟩
  | 66 => ⟨S800000x4, .f32⟩
  | 67 => ⟨S800000x4, .f32⟩
  | 68 => ⟨S800000x4x1, .f32⟩
  | 69 => ⟨S800000x4x1, .f32⟩
  | 70 => ⟨S800000x4x1, .f32⟩
  | 71 => ⟨S_, .f32⟩
  | 72 => ⟨S800000x4, .f32⟩
  | 73 => ⟨S800000x4x1, .f32⟩
  | 74 => ⟨S800000x4x1, .f32⟩
  | 75 => ⟨S800000x4x32, .f32⟩
  | 76 => ⟨S800000x4x32, .f32⟩
  | 77 => ⟨S800000x128, .f32⟩
  | 78 => ⟨S128x128, .f32⟩
  | 79 => ⟨S800000x128, .f32⟩
  | 80 => ⟨S1x128, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S50000x128, .f32⟩
  | 116 => ⟨S50000x128, .f32⟩
  | 117 => ⟨S_, .f32⟩
  | 118 => ⟨S50000x1, .f32⟩
  | 119 => ⟨S50000x1, .f32⟩
  | 120 => ⟨S50000x1, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  slices_S384_S128_0 : S384.Slices ![0] S128
  slices_S384_S128_128 : S384.Slices ![128] S128
  slices_S384_S128_256 : S384.Slices ![256] S128
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  shapeCasts_S800000x128_S800000x4x32 : S800000x128.ShapeCasts S800000x4x32
  reducesTo_S800000x4x32_S800000x4_d2 : S800000x4x32.ReducesTo [2] S800000x4
  h_S_ : 0 < S_.numel
  bcast_S800000x4_S800000x4x1_0_1 : S800000x4.BroadcastsInDim S800000x4x1 (![0, 1] : Fin 2 → Fin S800000x4x1.rank)
  bcast_S_S800000x4x1 : S_.BroadcastsInDim S800000x4x1 (![] : Fin 0 → Fin S800000x4x1.rank)
  reducesTo_S800000x4x1_S800000x4_d2 : S800000x4x1.ReducesTo [2] S800000x4
  bcast_S_S800000x4 : S_.BroadcastsInDim S800000x4 (![] : Fin 0 → Fin S800000x4.rank)
  bcast_S800000x4x1_S800000x4x32_0_1_2 : S800000x4x1.BroadcastsInDim S800000x4x32 (![0, 1, 2] : Fin 3 → Fin S800000x4x32.rank)
  shapeCasts_S800000x4x32_S800000x128 : S800000x4x32.ShapeCasts S800000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The kernel program's run with its result named.  The program is four segments: host operations, the projection
  region, host operations (the scatter-mean), the normalisation region.  The run of the segments ends with every
  buffer of the core at the contents the last boundary of the fold names; reading the result buffer there, beside the
  nine argument buffers, gives the run's post with the result array stated.
-/
import proofs.«173881_j8048768713043_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the fold of the four
    segments leaves there, and the nine arguments end as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.Spec.lean ====
/-
  The mathematics both programs are compared against, with no program in sight.

  Per edge e the kernel and the reference both form
      A(e, d) = Σ_j ( Σ_k K(e,k)·WT(k,j) + b(j) ) · OT(j,d) + ob(d)
  (the value projection followed by the output projection; the reference multiplies the value by a softmax
  weight over ONE key, which is 1 whenever the score is a real number).  Per node r both then normalise the
  row h(r,·) = H(r,·) + X(r,·):  mean μ(r) = (Σ_c h(r,c)) / 128,  variance v(r) = (Σ_c (h(r,c) − μ(r))²) / 128,
  result (h(r,c) − μ(r)) · rsqrt(v(r) + ε) · g(c) + β(c).

  Also here: the few facts about extended reals that are needed — sums, products and quotients of real numbers
  are real numbers, and the one-key softmax weight of a real score is 1.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Two indices with the same coordinates read the same entry. -/
theorem ix_congr {s : Shape} {α : Type} (f : s.Idx → α) {j k : s.Idx} (h : ∀ a, (j a).val = (k a).val) : f j = f k :=
  congrArg f (funext fun a => Fin.ext (h a))

/-! ## Real-valued entries -/

/-- Every entry of the array is a real number (neither infinity). -/
def AllReal {ι : Type} (f : ι → EReal) : Prop := ∀ i, ∃ r : ℝ, f i = (r : EReal)

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_zero : ∃ r : ℝ, (0 : EReal) = (r : EReal) := ⟨0, EReal.coe_zero.symm⟩

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A real number divided by anything but zero is a real number (a quotient by an infinity is 0). -/
theorem real_div {a b : EReal} (ha : ∃ r : ℝ, a = (r : EReal)) (hb : b ≠ 0) : ∃ r : ℝ, Ideal.div a b = (r : EReal) := by
  obtain ⟨x, rfl⟩ := ha
  rw [Ideal.div, if_neg hb]
  induction b using EReal.rec with
  | bot => exact ⟨0, by simp⟩
  | top => exact ⟨0, by simp⟩
  | coe y => exact ⟨x * y⁻¹, by rw [← EReal.coe_inv, ← EReal.coe_mul]⟩

/-! ## The softmax weight over one key -/

/-- With one key of real score `r`, the shifted exponential is `exp 0 = 1`, the normaliser `0 + 1`, the weight 1. -/
theorem softmax_one (r : ℝ) :
    Ideal.div (Ideal.exp ((r : EReal) - (r : EReal))) (0 + Ideal.exp ((r : EReal) - (r : EReal))) = 1 := by
  have h0 : ((r : EReal) - (r : EReal)) = ((0 : ℝ) : EReal) := by rw [← EReal.coe_sub, sub_self]
  rw [h0, Ideal.exp_coe, Real.exp_zero, zero_add, Ideal.div, if_neg (by simp)]
  simp

/-- One over one is one. -/
theorem div_one_one : Ideal.div (1 : EReal) 1 = 1 := by
  rw [Ideal.div, if_neg (by simp)]; simp

/-! ## The float words the softmax and the precondition spell -/

/-- The word of −∞, the initial value of the softmax's running maximum. -/
theorem ofBits_neg_inf : Ideal.ofBits .f32 0xFF800000#32 = ⊥ := by
  simp [Ideal.ofBits, Ideal.ieee]

/-- The word of +∞, against which the precondition compares every input's absolute value. -/
theorem ofBits_pos_inf : Ideal.ofBits .f32 0x7F800000#32 = ⊤ := by
  simp [Ideal.ofBits, Ideal.ieee]

/-- The word of 32.0, the head dimension under the score's square root. -/
theorem ofBits_32 : Ideal.ofBits .f32 0x42000000#32 = ((32 : ℝ) : EReal) := by
  simp [Ideal.ofBits, Ideal.ieee, -EReal.coe_mul]; norm_num

/-- The score's divisor, the square root of 32, is not zero. -/
theorem sqrt32_ne_zero : Ideal.sqrt (Ideal.ofBits .f32 0x42000000#32) ≠ 0 := by
  rw [ofBits_32, Ideal.sqrt_coe, if_neg (by norm_num)]
  intro h
  have h' : Real.sqrt 32 = 0 := by exact_mod_cast h
  rw [Real.sqrt_eq_zero'] at h'
  norm_num at h'

/-- The running maximum of one real score started from −∞, and −∞ again, is the score. -/
theorem max_single (s : EReal) : max (⊥ : EReal) (max s ⊥) = s := by simp

/-! ## The per-edge projection -/

/-- `A(e, d)`: the value projection of edge `e`'s gathered row, then the output projection, both with bias. -/
def projAt (K : (⟨2, ![800000, 128]⟩ : Shape).Idx → EReal) (WT OT : (⟨2, ![128, 128]⟩ : Shape).Idx → EReal)
    (b ob : (⟨1, ![128]⟩ : Shape).Idx → EReal) (e : Fin 800000) (d : Fin 128) : EReal :=
  (∑ j : Fin 128, ((∑ k : Fin 128, K (ix2 e k) * WT (ix2 k j)) + b (ix1 j)) * OT (ix2 j d)) + ob (ix1 d)

/-- The same as a whole array. -/
def projArr (K : (⟨2, ![800000, 128]⟩ : Shape).Idx → EReal) (WT OT : (⟨2, ![128, 128]⟩ : Shape).Idx → EReal)
    (b ob : (⟨1, ![128]⟩ : Shape).Idx → EReal) : (⟨2, ![800000, 128]⟩ : Shape).Idx → EReal :=
  fun i => projAt K WT OT b ob ⟨(i 0).val, (i 0).isLt⟩ ⟨(i 1).val, (i 1).isLt⟩

/-! ## Residual and layer normalisation of a node's row -/

/-- The row entry before normalisation: aggregate plus residual. -/
def lnH {n : Nat} (H X : (⟨2, ![n, 128]⟩ : Shape).Idx → EReal) (r : Fin n) (c : Fin 128) : EReal :=
  H (ix2 r c) + X (ix2 r c)

/-- The row's mean: the sum of its 128 entries over the float 128.0. -/
def lnMu {n : Nat} (H X : (⟨2, ![n, 128]⟩ : Shape).Idx → EReal) (r : Fin n) : EReal :=
  Ideal.div (∑ c : Fin 128, lnH H X r c) (Ideal.ofBits .f32 0x43000000#32)

/-- The row's variance: the mean of the squared deviations. -/
def lnVar {n : Nat} (H X : (⟨2, ![n, 128]⟩ : Shape).Idx → EReal) (r : Fin n) : EReal :=
  Ideal.div (∑ c : Fin 128, (lnH H X r c - lnMu H X r) * (lnH H X r c - lnMu H X r)) (Ideal.ofBits .f32 0x43000000#32)

/-- The normalised entry, scaled and shifted. -/
def lnAt {n : Nat} (H X : (⟨2, ![n, 128]⟩ : Shape).Idx → EReal) (g β : (⟨1, ![128]⟩ : Shape).Idx → EReal)
    (r : Fin n) (c : Fin 128) : EReal :=
  (lnH H X r c - lnMu H X r) * Ideal.rsqrt (lnVar H X r + Ideal.ofBits .f32 0x3727C5AC#32) * g (ix1 c) + β (ix1 c)

/-- The normalised entry depends only on the node's own row of the two arrays: a row of a block that holds the
    same 128 numbers normalises to the same entries. -/
theorem lnAt_congr {n n' : Nat} (H X : (⟨2, ![n, 128]⟩ : Shape).Idx → EReal) (H' X' : (⟨2, ![n', 128]⟩ : Shape).Idx → EReal)
    (g β : (⟨1, ![128]⟩ : Shape).Idx → EReal) (r : Fin n) (r' : Fin n')
    (hH : ∀ c : Fin 128, H (ix2 r c) = H' (ix2 r' c)) (hX : ∀ c : Fin 128, X (ix2 r c) = X' (ix2 r' c)) (c : Fin 128) :
    lnAt H X g β r c = lnAt H' X' g β r' c := by
  have h1 : ∀ c, lnH H X r c = lnH H' X' r' c := fun c => by unfold lnH; rw [hH c, hX c]
  have h2 : lnMu H X r = lnMu H' X' r' := by unfold lnMu; simp only [h1]
  have h3 : lnVar H X r = lnVar H' X' r' := by unfold lnVar; simp only [h1, h2]
  unfold lnAt; rw [h1 c, h2, h3]

/-- The same as a whole array over the 50000 nodes. -/
def lnArr (H X : (⟨2, ![50000, 128]⟩ : Shape).Idx → EReal) (g β : (⟨1, ![128]⟩ : Shape).Idx → EReal) :
    (⟨2, ![50000, 128]⟩ : Shape).Idx → EReal :=
  fun i => lnAt H X g β ⟨(i 0).val, (i 0).isLt⟩ ⟨(i 1).val, (i 1).isLt⟩

/-- Row 0 of a one-row array, as a vector. -/
def row0 (B : (⟨2, ![1, 128]⟩ : Shape).Idx → EReal) : (⟨1, ![128]⟩ : Shape).Idx → EReal :=
  fun j => B (ix2 (0 : Fin 1) ⟨(j 0).val, (j 0).isLt⟩)

end Cert.Spec

end
-- ==== Proof.KProj.lean ====
/-
  The per-edge projection kernel, read as a value.  Each of its 80 grid points handles 10000 consecutive edges:
  it loads their gathered rows and the whole of both weight matrices and bias rows, forms
  (rows · WT + b) · OT + ob with exact sums (a change of float format is the identity on extended reals, and a
  matrix product into a zero accumulator is the plain sum of products), and writes the 10000 result rows back.
  The 80 row blocks tile the edge axis, so after the region the result array is `Spec.projArr` of the five arrays
  the region was entered with.
-/
import proofs.«173881_j8048768713043_2_alg».proof.Proof.Gen.KernelIdeal.Frame
import proofs.«173881_j8048768713043_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen Cert.Spec

theorem hz : (![0, 0] : Fin 2 → Nat) = fun _ => 0 := funext fun a => by fin_cases a <;> rfl

/-! ## The matrix product of a 10000-row block with a 128 × 128 matrix, at an entry -/

local notation "dotK" => dot_S10000x128_S128x128_S10000x128_1_0_0_1_n_n

theorem lhs0 (i : S10000x128.Idx) (q : (dotK).contr.Idx) : ((dotK).lhsIdx i q 0).val = (i 0).val := by
  unfold DotDims.lhsIdx
  rw [dif_neg (show ¬(0 : Fin S10000x128.rank) ∈ (dotK).lhsBatch by decide), dif_pos (show (0 : Fin S10000x128.rank) ∈ (dotK).lhsNonContracting by decide)]
  rfl

theorem rhs1 (i : S10000x128.Idx) (q : (dotK).contr.Idx) : ((dotK).rhsIdx i q 1).val = (i 1).val := by
  unfold DotDims.rhsIdx
  rw [dif_neg (show ¬(1 : Fin S128x128.rank) ∈ (dotK).rhsBatch by decide), dif_pos (show (1 : Fin S128x128.rank) ∈ (dotK).rhsNonContracting by decide)]
  rfl

/-- Entry (p, q) of the product is the sum over k of row p at k times column q at k. -/
theorem mm_apply {φ₁ φ₂ : FTy} (l : FVec Ideal S10000x128 φ₁) (r : FVec Ideal S128x128 φ₂) (p : Fin 10000) (q : Fin 128) :
    matmul (dotK) none l r (constant (F := Ideal) S10000x128 .f32 0x00000000#32) (ix2 p q)
      = ∑ k : Fin 128, l (ix2 p k) * r (ix2 k q) := by
  simp only [matmul]
  rw [Ideal.matmul_constant_zero_apply, ← Equiv.sum_comp (ValueIdx.contrEquiv1 (dotK) 128 rfl rfl).symm]
  refine Finset.sum_congr rfl fun k _ => ?_
  have hk := ValueIdx.contrEquiv1_symm_val (dotK) 128 rfl rfl k
  have el : (dotK).lhsIdx (ix2 p q) ((ValueIdx.contrEquiv1 (dotK) 128 rfl rfl).symm k) = ix2 p k := funext fun a => Fin.ext (by
    match a with
    | ⟨0, _⟩ => exact lhs0 _ _
    | ⟨1, _⟩ => exact ((dotK).lhsIdx_val_of_single rfl _ _).trans hk)
  have er : (dotK).rhsIdx (ix2 p q) ((ValueIdx.contrEquiv1 (dotK) 128 rfl rfl).symm k) = ix2 k q := funext fun a => Fin.ext (by
    match a with
    | ⟨0, _⟩ => exact ((dotK).rhsIdx_val_of_single rfl _ _).trans hk
    | ⟨1, _⟩ => exact rhs1 _ _)
  rw [el, er]

/-! ## The body's one stored value, at an entry -/

/-- Entry (p, q) of what the body stores: the two projections with their biases, over the loaded blocks. -/
theorem pay_apply (x0 : Vec Ideal S10000x128 .f32) (x1 : Vec Ideal S128x128 .f32) (x2 : Vec Ideal S1x128 .f32)
    (x3 : Vec Ideal S128x128 .f32) (x4 : Vec Ideal S1x128 .f32) (p : Fin 10000) (q : Fin 128) :
    k0_pay1 (F := Ideal) x0 x1 x2 x3 x4 (ix2 p q)
      = (∑ j : Fin 128, ((∑ k : Fin 128, x0 (ix2 p k) * x1 (ix2 k j)) + x2 (ix2 (0 : Fin 1) j)) * x3 (ix2 j q))
          + x4 (ix2 (0 : Fin 1) q) := by
  unfold k0_pay1
  simp only [shapeCast_self]
  rw [addf_apply, mm_apply, broadcastTo_1b_ab_apply]
  refine congrArg (· + x4 (ix2 (0 : Fin 1) q)) (Finset.sum_congr rfl fun j _ => ?_)
  rw [truncf_apply, addf_apply, mm_apply, broadcastTo_1b_ab_apply, truncf_apply]
  refine congrArg (· * x3 (ix2 j q)) (congrArg (· + x2 (ix2 (0 : Fin 1) j)) (Finset.sum_congr rfl fun k _ => ?_))
  rw [truncf_apply, truncf_apply]

/-! ## The blocks a grid point reads and writes -/

variable (V : (c : Dev nD) → (b : Ref sig .tc) → Buf (Elt Ideal) ((c : Thread nD τ).loc b))

/-- The index maps over the grid: point t takes row block t of the gathered rows and of the result, and block
    (0, 0) — the whole array — of each weight matrix and bias row. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of gathered rows is row 10000·t + p of the array. -/
theorem blk0_apply (c : Dev nD) (t : Fin cfg0.N) (x : S10000x128.Idx) (k : S800000x128.Idx)
    (hk0 : (k 0).val = 10000 * t.val + (x 0).val) (hk1 : (k 1).val = (x 1).val) :
    (iblk0 V c 0 t : Vec Ideal S10000x128 .f32) x = (V c main_v10 : S800000x128.Idx → EReal) k := by
  have hi := idx_facts t
  unfold iblk0
  rw [View.read_apply]
  show V c main_v10 _ = V c main_v10 _
  congr 1
  funext a
  apply Fin.ext
  match a with
  | ⟨0, _⟩ => show win0_0.index t 0 * 10000 + 1 * (x 0).val = (k 0).val; rw [hi.1, hk0]; omega
  | ⟨1, _⟩ => show win0_0.index t 1 * 128 + 1 * (x 1).val = (k 1).val; rw [hi.2.1, hk1]; omega

/-- The value-projection matrix is read whole. -/
theorem blk1_apply (c : Dev nD) (t : Fin cfg0.N) (x : S128x128.Idx) :
    (iblk0 V c 1 t : Vec Ideal S128x128 .f32) x = (V c main_v13 : S128x128.Idx → EReal) x := by
  have hi := idx_facts t
  unfold iblk0
  rw [View.read_apply]
  show V c main_v13 _ = V c main_v13 _
  congr 1
  funext a
  apply Fin.ext
  match a with
  | ⟨0, _⟩ => show win0_1.index t 0 * 128 + 1 * (x 0).val = (x 0).val; rw [hi.2.2.1]; omega
  | ⟨1, _⟩ => show win0_1.index t 1 * 128 + 1 * (x 1).val = (x 1).val; rw [hi.2.2.2.1]; omega

/-- The value bias row is read whole. -/
theorem blk2_apply (c : Dev nD) (t : Fin cfg0.N) (x : S1x128.Idx) :
    (iblk0 V c 2 t : Vec Ideal S1x128 .f32) x = (V c main_v15 : S1x128.Idx → EReal) x := by
  have hi := idx_facts t
  unfold iblk0
  rw [View.read_apply]
  show V c main_v15 _ = V c main_v15 _
  congr 1
  funext a
  apply Fin.ext
  match a with
  | ⟨0, _⟩ => show win0_2.index t 0 * 1 + 1 * (x 0).val = (x 0).val; rw [hi.2.2.2.2.1]; omega
  | ⟨1, _⟩ => show win0_2.index t 1 * 128 + 1 * (x 1).val = (x 1).val; rw [hi.2.2.2.2.2.1]; omega

/-- The output-projection matrix is read whole. -/
theorem blk3_apply (c : Dev nD) (t : Fin cfg0.N) (x : S128x128.Idx) :
    (iblk0 V c 3 t : Vec Ideal S128x128 .f32) x = (V c main_v14 : S128x128.Idx → EReal) x := by
  have hi := idx_facts t
  unfold iblk0
  rw [View.read_apply]
  show V c main_v14 _ = V c main_v14 _
  congr 1
  funext a
  apply Fin.ext
  match a with
  | ⟨0, _⟩ => show win0_3.index t 0 * 128 + 1 * (x 0).val = (x 0).val; rw [hi.2.2.2.2.2.2.1]; omega
  | ⟨1, _⟩ => show win0_3.index t 1 * 128 + 1 * (x 1).val = (x 1).val; rw [hi.2.2.2.2.2.2.2.1]; omega

/-- The output bias row is read whole. -/
theorem blk4_apply (c : Dev nD) (t : Fin cfg0.N) (x : S1x128.Idx) :
    (iblk0 V c 4 t : Vec Ideal S1x128 .f32) x = (V c main_v16 : S1x128.Idx → EReal) x := by
  have hi := idx_facts t
  unfold iblk0
  rw [View.read_apply]
  show V c main_v16 _ = V c main_v16 _
  congr 1
  funext a
  apply Fin.ext
  match a with
  | ⟨0, _⟩ => show win0_4.index t 0 * 1 + 1 * (x 0).val = (x 0).val; rw [hi.2.2.2.2.2.2.2.2.1]; omega
  | ⟨1, _⟩ => show win0_4.index t 1 * 128 + 1 * (x 1).val = (x 1).val; rw [hi.2.2.2.2.2.2.2.2.2.1]; omega

/-- The projection of the five arrays the region is entered with. -/
abbrev G (c : Dev nD) : S800000x128.Idx → EReal :=
  projArr (V c main_v10 : S800000x128.Idx → EReal) (V c main_v13 : S128x128.Idx → EReal) (V c main_v14 : S128x128.Idx → EReal)
    (row0 (V c main_v15 : S1x128.Idx → EReal)) (row0 (V c main_v16 : S1x128.Idx → EReal))

/-- What point t writes back is row block t of the projection. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  have hi := idx_facts t
  funext j
  obtain ⟨p, q, rfl⟩ : ∃ (p : Fin 10000) (q : Fin 128), j = ix2 p q := ⟨j 0, j 1, eq_ix2 j⟩
  refine (pay_apply _ _ _ _ _ p q).trans ?_
  have hp : 10000 * t.val + p.val < 800000 := by
    have := t.isLt; have h80 : cfg0.N = 80 := N_0; have := p.isLt; omega
  show _ = projAt _ _ _ _ _ ⟨(((cfg0.win 5).blk t).view.emb (ix2 p q) 0).val, _⟩ ⟨(((cfg0.win 5).blk t).view.emb (ix2 p q) 1).val, _⟩
  have e0 : (((cfg0.win 5).blk t).view.emb (ix2 p q) 0).val = 10000 * t.val + p.val := by
    show win0_5.index t 0 * 10000 + 1 * p.val = _; rw [hi.2.2.2.2.2.2.2.2.2.2.1]; omega
  have e1 : (((cfg0.win 5).blk t).view.emb (ix2 p q) 1).val = q.val := by
    show win0_5.index t 1 * 128 + 1 * q.val = _; rw [hi.2.2.2.2.2.2.2.2.2.2.2]; omega
  unfold projAt row0
  refine congrArg₂ (· + ·) (Finset.sum_congr rfl fun j' _ => ?_) ?_
  · refine congrArg₂ (· * ·) (congrArg₂ (· + ·) (Finset.sum_congr rfl fun k _ => ?_) ?_) ?_
    · rw [blk0_apply V c t (ix2 p k) (ix2 ⟨10000 * t.val + p.val, hp⟩ k) rfl rfl, blk1_apply]
      exact congrArg (· * _) (ix_congr _ fun a => match a with | ⟨0, _⟩ => e0.symm | ⟨1, _⟩ => rfl)
    · rw [blk2_apply]
    · rw [blk3_apply]; exact ix_congr _ fun a => match a with | ⟨0, _⟩ => rfl | ⟨1, _⟩ => e1.symm
  · rw [blk4_apply]; exact ix_congr _ fun a => match a with | ⟨0, _⟩ => rfl | ⟨1, _⟩ => e1.symm

/-- An index lies in point t's result block iff its row lies in row block t. -/
theorem mem_blk (t : Fin cfg0.N) (i : S800000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v17).slice (win0_5.rect t)).set ↔ _
  rw [View.set_slice_whole, Rect.mem_set_unit]
  exact Iff.rfl

/-- The 80 row blocks tile the edge axis, so after the region the result array is the projection. -/
theorem final (c : Dev nD) : (dat0 V c).arrAt 5 cfg0.N = G V c :=
  (dat0 V c).arrAt_eq_of_cover 5 (G V c) (fun t _ => flushed_eq V c t) fun i => by
    have h0 : (i 0).val < 800000 := (i 0).isLt
    have h1 : (i 1).val < 128 := (i 1).isLt
    have h80 : cfg0.N = 80 := N_0
    refine ⟨⟨(i 0).val / 10000, by omega⟩, flush0_5 _, ?_⟩
    rw [mem_blk]
    obtain ⟨-, -, -, -, -, -, -, -, -, -, e0, e1⟩ := idx_facts ⟨(i 0).val / 10000, by omega⟩
    intro a
    match a with
    | ⟨0, _⟩ =>
      show win0_5.index _ (0 : Fin 2) * 10000 ≤ (i 0).val ∧ (i 0).val < win0_5.index _ (0 : Fin 2) * 10000 + 10000
      rw [e0]; show (i 0).val / 10000 * 10000 ≤ _ ∧ _ < (i 0).val / 10000 * 10000 + 10000; omega
    | ⟨1, _⟩ =>
      show win0_5.index _ (1 : Fin 2) * 128 ≤ (i 1).val ∧ (i 1).val < win0_5.index _ (1 : Fin 2) * 128 + 128
      rw [e1]; omega

end Cert.KernelIdeal.Proj

end
-- ==== Proof.KLN.lean ====
/-
  The residual + layer-normalisation kernel, read as a value.  Each of its 10 grid points handles 5000 consecutive
  nodes: it loads their rows of the aggregate and of the residual and the whole scale and shift rows, and for each
  row forms h = aggregate + residual, the mean of h over its 128 entries, the mean squared deviation, and
  (h − mean) · rsqrt(variance + ε) · g + β.  A row's result depends on that row only, so the block's rows are rows
  of `Spec.lnArr` of the whole arrays; the 10 row blocks tile the node axis.
-/
import proofs.«173881_j8048768713043_2_alg».proof.Proof.Gen.KernelIdeal.Frame
import proofs.«173881_j8048768713043_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LN

open Cert.KernelIdeal Cert.KernelIdeal.Gen Cert.Spec

theorem hz : (![0, 0] : Fin 2 → Nat) = fun _ => 0 := funext fun a => by fin_cases a <;> rfl

/-! ## The layout operations of the body, as whole-vector functions -/

/-- A sum along a row of a 5000 × 128 vector. -/
theorem rowsum_eq (src : S5000x128.Idx → EReal) :
    Ideal.reduceAdd reduces_S5000x128_S5000 src
      = fun j => ∑ k : Fin 128, src (ix2 (⟨(j 0).val, (j 0).isLt⟩ : Fin 5000) k) := by
  funext j
  refine (Ideal.reduceAdd_single reduces_S5000x128_S5000 src j).trans ?_
  refine Finset.sum_congr rfl fun k _ => ?_
  exact ix_congr _ fun a => match a with | ⟨0, _⟩ => rfl | ⟨1, _⟩ => rfl

/-- A 5000-vector seen as a 5000 × 1 column. -/
theorem col_cast_eq {α : Type} (v : S5000.Idx → α) :
    shapeCast S5000x1 v shapeCasts_S5000_S5000x1 = fun j => v (ix1 (⟨(j 0).val, (j 0).isLt⟩ : Fin 5000)) := by
  funext j
  refine shapeCast_apply v shapeCasts_S5000_S5000x1 j _ ?_
  rw [Shape.rowMajor_val_two, Shape.rowMajor_val_one]
  have h1 : (j 1).val < 1 := (j 1).isLt
  show (j 0).val = (j 0).val * 1 + (j 1).val
  omega

/-- A 5000 × 1 column repeated along 128 lanes. -/
theorem col_bcast_eq {α : Type} (v : S5000x1.Idx → α) :
    broadcastTo S5000x128 v broadcasts_S5000x1_S5000x128
      = fun j => v (ix2 (⟨(j 0).val, (j 0).isLt⟩ : Fin 5000) (0 : Fin 1)) := by
  funext j
  refine broadcastTo_apply v broadcasts_S5000x1_S5000x128 j _ fun ax => ?_
  match ax with
  | ⟨0, _⟩ => show (j 0).val = if (5000 : Nat) = 1 then 0 else (j 0).val; rw [if_neg (by decide)]
  | ⟨1, _⟩ => show 0 = if (1 : Nat) = 1 then 0 else (j 1).val; rw [if_pos rfl]

/-- A 1 × 128 row repeated over 5000 rows. -/
theorem row_bcast_eq {α : Type} (v : S1x128.Idx → α) :
    broadcastTo S5000x128 v broadcasts_S1x128_S5000x128
      = fun j => v (ix2 (0 : Fin 1) (⟨(j 1).val, (j 1).isLt⟩ : Fin 128)) := by
  funext j
  refine broadcastTo_apply v broadcasts_S1x128_S5000x128 j _ fun ax => ?_
  match ax with
  | ⟨0, _⟩ => show 0 = if (1 : Nat) = 1 then 0 else (j 0).val; rw [if_pos rfl]
  | ⟨1, _⟩ => show (j 1).val = if (128 : Nat) = 1 then 0 else (j 1).val; rw [if_neg (by decide)]

/-! ## The body's one stored value, at an entry -/

/-- Entry (p, q) of what the body stores is the normalised entry of row p of the two loaded blocks. -/
theorem pay_apply (x0 x1 : Vec Ideal S5000x128 .f32) (x2 x3 : Vec Ideal S1x128 .f32) (p : Fin 5000) (q : Fin 128) :
    k1_pay1 (F := Ideal) x0 x1 x2 x3 (ix2 p q) = lnAt (n := 5000) x0 x1 (row0 x2) (row0 x3) p q := by
  unfold k1_pay1
  simp only [shapeCast_self, multiReduction, Ideal.reduceAdd_def, rowsum_eq, col_cast_eq, col_bcast_eq, row_bcast_eq]
  rfl

/-! ## The blocks a grid point reads and writes -/

variable (V : (c : Dev nD) → (b : Ref sig .tc) → Buf (Elt Ideal) ((c : Thread nD τ).loc b))

/-- The index maps over the grid: point t takes row block t of the aggregate, of the residual and of the result,
    and block (0, 0) — the whole row — of the scale and of the shift. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the aggregate is row 5000·t + p of the array. -/
theorem blk0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v29 : S50000x128.Idx → EReal) k := by
  have hi := idx_facts t
  unfold iblk1
  rw [View.read_apply]
  show V c main_v29 _ = V c main_v29 _
  congr 1
  funext a
  apply Fin.ext
  match a with
  | ⟨0, _⟩ => show win1_0.index t 0 * 5000 + 1 * (x 0).val = (k 0).val; rw [hi.1, hk0]; omega
  | ⟨1, _⟩ => show win1_0.index t 1 * 128 + 1 * (x 1).val = (k 1).val; rw [hi.2.1, hk1]; omega

/-- Row p of point t's block of the residual is row 5000·t + p of the array. -/
theorem blk1_apply (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_arg1 : S50000x128.Idx → EReal) k := by
  have hi := idx_facts t
  unfold iblk1
  rw [View.read_apply]
  show V c main_arg1 _ = V c main_arg1 _
  congr 1
  funext a
  apply Fin.ext
  match a with
  | ⟨0, _⟩ => show win1_1.index t 0 * 5000 + 1 * (x 0).val = (k 0).val; rw [hi.2.2.1, hk0]; omega
  | ⟨1, _⟩ => show win1_1.index t 1 * 128 + 1 * (x 1).val = (k 1).val; rw [hi.2.2.2.1, hk1]; omega

/-- The scale row is read whole. -/
theorem blk2_apply (c : Dev nD) (t : Fin cfg1.N) (x : S1x128.Idx) :
    (iblk1 V c 2 t : Vec Ideal S1x128 .f32) x = (V c main_v30 : S1x128.Idx → EReal) x := by
  have hi := idx_facts t
  unfold iblk1
  rw [View.read_apply]
  show V c main_v30 _ = V c main_v30 _
  congr 1
  funext a
  apply Fin.ext
  match a with
  | ⟨0, _⟩ => show win1_2.index t 0 * 1 + 1 * (x 0).val = (x 0).val; rw [hi.2.2.2.2.1]; omega
  | ⟨1, _⟩ => show win1_2.index t 1 * 128 + 1 * (x 1).val = (x 1).val; rw [hi.2.2.2.2.2.1]; omega

/-- The shift row is read whole. -/
theorem blk3_apply (c : Dev nD) (t : Fin cfg1.N) (x : S1x128.Idx) :
    (iblk1 V c 3 t : Vec Ideal S1x128 .f32) x = (V c main_v31 : S1x128.Idx → EReal) x := by
  have hi := idx_facts t
  unfold iblk1
  rw [View.read_apply]
  show V c main_v31 _ = V c main_v31 _
  congr 1
  funext a
  apply Fin.ext
  match a with
  | ⟨0, _⟩ => show win1_3.index t 0 * 1 + 1 * (x 0).val = (x 0).val; rw [hi.2.2.2.2.2.2.1]; omega
  | ⟨1, _⟩ => show win1_3.index t 1 * 128 + 1 * (x 1).val = (x 1).val; rw [hi.2.2.2.2.2.2.2.1]; omega

/-- The normalisation of the four arrays the region is entered with. -/
abbrev G (c : Dev nD) : S50000x128.Idx → EReal :=
  lnArr (V c main_v29 : S50000x128.Idx → EReal) (V c main_arg1 : S50000x128.Idx → EReal)
    (row0 (V c main_v30 : S1x128.Idx → EReal)) (row0 (V c main_v31 : S1x128.Idx → EReal))

/-- What point t writes back is row block t of the normalisation. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  have hi := idx_facts t
  funext j
  obtain ⟨p, q, rfl⟩ : ∃ (p : Fin 5000) (q : Fin 128), j = ix2 p q := ⟨j 0, j 1, eq_ix2 j⟩
  refine (pay_apply _ _ _ _ p q).trans ?_
  have hp : 5000 * t.val + p.val < 50000 := by
    have := t.isLt; have h10 : cfg1.N = 10 := N_1; have := p.isLt; omega
  have hg : row0 (iblk1 V c 2 t : Vec Ideal S1x128 .f32) = row0 (V c main_v30 : S1x128.Idx → EReal) := by
    funext j'; unfold row0; exact blk2_apply V c t _
  have hb : row0 (iblk1 V c 3 t : Vec Ideal S1x128 .f32) = row0 (V c main_v31 : S1x128.Idx → EReal) := by
    funext j'; unfold row0; exact blk3_apply V c t _
  rw [hg, hb]
  refine (lnAt_congr _ _ (V c main_v29 : S50000x128.Idx → EReal) (V c main_arg1 : S50000x128.Idx → EReal) _ _ p
    ⟨5000 * t.val + p.val, hp⟩ (fun k => blk0_apply V c t (ix2 p k) (ix2 ⟨5000 * t.val + p.val, hp⟩ k) rfl rfl)
    (fun k => blk1_apply V c t (ix2 p k) (ix2 ⟨5000 * t.val + p.val, hp⟩ k) rfl rfl) q).trans ?_
  have e0 : (((cfg1.win 4).blk t).view.emb (ix2 p q) 0).val = 5000 * t.val + p.val := by
    show win1_4.index t 0 * 5000 + 1 * p.val = _; rw [hi.2.2.2.2.2.2.2.2.1]; omega
  have e1 : (((cfg1.win 4).blk t).view.emb (ix2 p q) 1).val = q.val := by
    show win1_4.index t 1 * 128 + 1 * q.val = _; rw [hi.2.2.2.2.2.2.2.2.2]; omega
  show lnAt _ _ _ _ _ _ = lnAt _ _ _ _ ⟨(((cfg1.win 4).blk t).view.emb (ix2 p q) 0).val, _⟩ ⟨(((cfg1.win 4).blk t).view.emb (ix2 p q) 1).val, _⟩
  congr 1
  · exact Fin.ext e0.symm
  · exact Fin.ext e1.symm

/-- An index lies in point t's result block iff its row lies in row block t. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v32).slice (win1_4.rect t)).set ↔ _
  rw [View.set_slice_whole, Rect.mem_set_unit]
  exact Iff.rfl

/-- The 10 row blocks tile the node axis, so after the region the result array is the normalisation. -/
theorem final (c : Dev nD) : (dat1 V c).arrAt 4 cfg1.N = G V c :=
  (dat1 V c).arrAt_eq_of_cover 4 (G V c) (fun t _ => flushed_eq V c t) fun i => by
    have h0 : (i 0).val < 50000 := (i 0).isLt
    have h1 : (i 1).val < 128 := (i 1).isLt
    have h10 : cfg1.N = 10 := N_1
    refine ⟨⟨(i 0).val / 5000, by omega⟩, flush1_4 _, ?_⟩
    rw [mem_blk]
    obtain ⟨-, -, -, -, -, -, -, -, e0, e1⟩ := idx_facts ⟨(i 0).val / 5000, by omega⟩
    intro a
    match a with
    | ⟨0, _⟩ =>
      show win1_4.index _ (0 : Fin 2) * 5000 ≤ (i 0).val ∧ (i 0).val < win1_4.index _ (0 : Fin 2) * 5000 + 5000
      rw [e0]; show (i 0).val / 5000 * 5000 ≤ _ ∧ _ < (i 0).val / 5000 * 5000 + 5000; omega
    | ⟨1, _⟩ =>
      show win1_4.index _ (1 : Fin 2) * 128 ≤ (i 1).val ∧ (i 1).val < win1_4.index _ (1 : Fin 2) * 128 + 128
      rw [e1]; omega

end Cert.KernelIdeal.LN

end
-- ==== Proof.RefTail.lean ====
/-
  The scatter-mean both programs apply, with the very same host operations, to the per-edge projections: the rows
  are summed into their destination nodes, and each node's sum is divided by its number of incoming edges (at least
  1).  It is carried as ONE function of the projections and the destination indices, and never opened: the two
  programs feed it equal arguments.
-/
import proofs.«173881_j8048768713043_2_alg».proof.Proof.Gen.ReferenceIdeal.Read

set_option maxRecDepth 16384

noncomputable section

open Idealize.ShloMosaic Idealize.ShloMosaic.TcCoe Idealize.SL.Sem

namespace Cert.ReferenceIdeal.RefTail

open Cert.ReferenceIdeal Cert.ReferenceIdeal.Gen Cert.ReferenceIdeal.Read

/-- The scatter-mean of the rows `A` over the destination nodes `dst`. -/
def tail (A : (⟨S800000x128, .f32⟩ : BufTy).Contents (Elt Ideal)) (dst : (⟨S800000, .i32⟩ : BufTy).Contents (Elt Ideal)) :
    (⟨S50000x128, .f32⟩ : BufTy).Contents (Elt Ideal) :=
  Host.divf (F := Ideal) (φ := .f32)
    (Host.scatterAdd (F := Ideal) (φ := .f32) scatter_S50000x128_S800000x1_S800000x128_1_0_0_1 (val_main_v65 (F := Ideal))
      (broadcastInDim S800000x1 ![0] bcast_S800000_S800000x1_0 dst) A)
    (broadcastInDim S50000x128 ![0, 1] bcast_S50000x1_S50000x128_0_1 (broadcastInDim S50000x1 ![0] bcast_S50000_S50000x1_0
      (maximumf (F := Ideal) (φ := .f32) (Host.scatterAdd (F := Ideal) (φ := .f32) scatter_S50000_S800000x1_S800000_n_0_0_1 (val_main_v69 (F := Ideal))
        (broadcastInDim S800000x1 ![0] bcast_S800000_S800000x1_0 dst) (val_main_v68 (F := Ideal))) (val_main_v72 (F := Ideal)))))

variable (x0 x1 : (⟨S50000x128, .f32⟩ : BufTy).Contents (Elt Ideal)) (x2 : (⟨S2x800000, .i32⟩ : BufTy).Contents (Elt Ideal))
  (x3 : (⟨S384x128, .f32⟩ : BufTy).Contents (Elt Ideal)) (x4 : (⟨S384, .f32⟩ : BufTy).Contents (Elt Ideal))
  (x5 : (⟨S128x128, .f32⟩ : BufTy).Contents (Elt Ideal)) (x6 : (⟨S128, .f32⟩ : BufTy).Contents (Elt Ideal))

/-- The reference's aggregate is the scatter-mean of its per-edge projections over its destination indices. -/
theorem v76_eq : val_main_v76 (F := Ideal) x0 x1 x2 x3 x4 x5 x6
    = tail (val_main_v64 (F := Ideal) x0 x1 x2 x3 x4 x5 x6) (val_main_v3 (F := Ideal) x2) := by
  unfold val_main_v76 val_main_v67 val_main_v75 val_main_v74 val_main_v73 val_main_v71 val_main_v70 val_main_v66 tail
  rfl

end Cert.ReferenceIdeal.RefTail

end
-- ==== Proof.KHost.lean ====
/-
  The kernel program's result as one function of its arguments.  Reading the four segments backwards: the result
  array is the normalisation (second region) of the aggregate, the residual, the scale and the shift as the second
  region finds them; the aggregate is the scatter-mean (host operations) of the first region's result over the
  destination indices; the first region's result is the projection of the gathered rows, the transposed value and
  output matrices and the two bias rows as the first region finds them; and those are host operations — a gather,
  slices, transposes, reshapes — of the arguments.  The host operations are spelt exactly as the reference spells
  its own, so each of these arrays IS the reference's stage of the same name.
-/
import proofs.«173881_j8048768713043_2_alg».proof.Proof.KProj
import proofs.«173881_j8048768713043_2_alg».proof.Proof.KLN
import proofs.«173881_j8048768713043_2_alg».proof.Proof.RefTail
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.HostReads

open Cert.KernelIdeal Cert.KernelIdeal.Gen Cert.Spec
open Cert.ReferenceIdeal.Read (val_main_v17 val_main_v36 val_main_v60 val_main_v23 val_main_v3)
open Cert.ReferenceIdeal.RefTail (tail)

variable (m : (ℓ : Loc nD τ sig) → Buf (Elt Ideal) ℓ) (ρ : Dev nD → PrngReg) (c : Dev nD)

/-! ## Congruences of the two specifications -/

theorem lnArr_congr {H H' X X' : (⟨2, ![50000, 128]⟩ : Shape).Idx → EReal} {g g' b b' : (⟨1, ![128]⟩ : Shape).Idx → EReal}
    (e1 : H = H') (e2 : X = X') (e3 : g = g') (e4 : b = b') : lnArr H X g b = lnArr H' X' g' b' := by
  subst e1 e2 e3 e4; rfl

theorem projArr_congr {K K' : (⟨2, ![800000, 128]⟩ : Shape).Idx → EReal} {W W' O O' : (⟨2, ![128, 128]⟩ : Shape).Idx → EReal}
    {b b' ob ob' : (⟨1, ![128]⟩ : Shape).Idx → EReal}
    (e1 : K = K') (e2 : W = W') (e3 : O = O') (e4 : b = b') (e5 : ob = ob') : projArr K W O b ob = projArr K' W' O' b' ob' := by
  subst e1 e2 e3 e4 e5; rfl

/-- A vector reshaped to one row, and that row read back, is the vector. -/
theorem row0_cast (x : (⟨1, ![128]⟩ : Shape).Idx → EReal) (h : (⟨1, ![128]⟩ : Shape).ShapeCasts ⟨2, ![1, 128]⟩) :
    row0 (shapeCast ⟨2, ![1, 128]⟩ x h) = x := by
  funext j
  unfold row0
  rw [shapeCast_a_1a_apply]
  exact ix_congr x fun a => match a with | ⟨0, _⟩ => rfl

/-! ## What the first region is entered with -/

theorem V1_v10 : V1 m ρ c main_v10 = val_main_v17 (F := Ideal) (m ((c.tc : Thread nD τ).loc main_arg0)) (m ((c.tc : Thread nD τ).loc main_arg2)) := by
  show StableHlo.after hostOps0 (W0 m ρ c) (Proc.devRef .tc main_v10) = _
  after_results
  rfl

theorem V1_v13 : V1 m ρ c main_v13 = val_main_v36 (F := Ideal) (m ((c.tc : Thread nD τ).loc main_arg3)) := by
  show StableHlo.after hostOps0 (W0 m ρ c) (Proc.devRef .tc main_v13) = _
  after_results
  rfl

theorem V1_v14 : V1 m ρ c main_v14 = val_main_v60 (F := Ideal) (m ((c.tc : Thread nD τ).loc main_arg5)) := by
  show StableHlo.after hostOps0 (W0 m ρ c) (Proc.devRef .tc main_v14) = _
  after_results
  rfl

theorem V1_v15 : V1 m ρ c main_v15 = shapeCast S1x128 (val_main_v23 (F := Ideal) (m ((c.tc : Thread nD τ).loc main_arg4))) shapeCasts_S128_S1x128 := by
  show StableHlo.after hostOps0 (W0 m ρ c) (Proc.devRef .tc main_v15) = _
  after_results
  rfl

theorem V1_v16 : V1 m ρ c main_v16 = shapeCast S1x128 (m ((c.tc : Thread nD τ).loc main_arg6)) shapeCasts_S128_S1x128 := by
  show StableHlo.after hostOps0 (W0 m ρ c) (Proc.devRef .tc main_v16) = _
  after_results
  rfl

theorem W1_v3 : W1 m ρ c (Proc.devRef .tc main_v3) = val_main_v3 (F := Ideal) (m ((c.tc : Thread nD τ).loc main_arg2)) := by
  show StableHlo.after hostOps0 (W0 m ρ c) (Proc.devRef .tc main_v3) = _
  after_results
  rfl

theorem W1_arg (b : Ref sig .tc) (hb : b = main_arg1 ∨ b = main_arg7 ∨ b = main_arg8) :
    W1 m ρ c (Proc.devRef .tc b) = m ((c.tc : Thread nD τ).loc b) := by
  rcases hb with rfl | rfl | rfl <;>
  · show StableHlo.after hostOps0 (W0 m ρ c) (Proc.devRef .tc _) = _
    after_results

/-! ## What the second region is entered with -/

theorem V3_v29 : V3 m ρ c main_v29 = tail (W2 m ρ c (Proc.devRef .tc main_v17)) (W2 m ρ c (Proc.devRef .tc main_v3)) := by
  show StableHlo.after hostOps1 (W2 m ρ c) (Proc.devRef .tc main_v29) = _
  after_results
  rfl

theorem V3_v30 : V3 m ρ c main_v30 = shapeCast S1x128 (W2 m ρ c (Proc.devRef .tc main_arg7)) shapeCasts_S128_S1x128 := by
  show StableHlo.after hostOps1 (W2 m ρ c) (Proc.devRef .tc main_v30) = _
  after_results
  rfl

theorem V3_v31 : V3 m ρ c main_v31 = shapeCast S1x128 (W2 m ρ c (Proc.devRef .tc main_arg8)) shapeCasts_S128_S1x128 := by
  show StableHlo.after hostOps1 (W2 m ρ c) (Proc.devRef .tc main_v31) = _
  after_results
  rfl

theorem V3_arg1 : V3 m ρ c main_arg1 = W2 m ρ c (Proc.devRef .tc main_arg1) := by
  show StableHlo.after hostOps1 (W2 m ρ c) (Proc.devRef .tc main_arg1) = _
  after_results

/-! ## The result -/

/-- The first region's result: the projection of the reference's own stages. -/
theorem proj_value : W2 m ρ c (Proc.devRef .tc main_v17)
    = projArr (val_main_v17 (F := Ideal) (m ((c.tc : Thread nD τ).loc main_arg0)) (m ((c.tc : Thread nD τ).loc main_arg2)))
        (val_main_v36 (F := Ideal) (m ((c.tc : Thread nD τ).loc main_arg3)))
        (val_main_v60 (F := Ideal) (m ((c.tc : Thread nD τ).loc main_arg5)))
        (val_main_v23 (F := Ideal) (m ((c.tc : Thread nD τ).loc main_arg4)))
        (m ((c.tc : Thread nD τ).loc main_arg6)) := by
  refine (W2_arr m ρ c 5).trans ?_
  refine (Proj.final (V1 m ρ) c).trans ?_
  refine projArr_congr (V1_v10 m ρ c) (V1_v13 m ρ c) (V1_v14 m ρ c) ?_ ?_
  · rw [V1_v15]; exact row0_cast _ _
  · rw [V1_v16]; exact row0_cast _ _

/-- The kernel program's result array, as a function of its arguments. -/
theorem kernel_value : W4 m ρ c (Proc.devRef .tc main_v32)
    = lnArr
        (tail
          (projArr (val_main_v17 (F := Ideal) (m ((c.tc : Thread nD τ).loc main_arg0)) (m ((c.tc : Thread nD τ).loc main_arg2)))
            (val_main_v36 (F := Ideal) (m ((c.tc : Thread nD τ).loc main_arg3)))
            (val_main_v60 (F := Ideal) (m ((c.tc : Thread nD τ).loc main_arg5)))
            (val_main_v23 (F := Ideal) (m ((c.tc : Thread nD τ).loc main_arg4)))
            (m ((c.tc : Thread nD τ).loc main_arg6)))
          (val_main_v3 (F := Ideal) (m ((c.tc : Thread nD τ).loc main_arg2))))
        (m ((c.tc : Thread nD τ).loc main_arg1)) (m ((c.tc : Thread nD τ).loc main_arg7)) (m ((c.tc : Thread nD τ).loc main_arg8)) := by
  refine (W4_arr m ρ c 4).trans ?_
  refine (LN.final (V3 m ρ) c).trans ?_
  refine lnArr_congr ?_ ?_ ?_ ?_
  · rw [V3_v29, proj_value, W2_of_ne m ρ c main_v3 (by decide), W1_v3]
  · rw [V3_arg1, W2_of_ne m ρ c main_arg1 (by decide), W1_arg m ρ c main_arg1 (Or.inl rfl)]
  · rw [V3_v30, W2_of_ne m ρ c main_arg7 (by decide), W1_arg m ρ c main_arg7 (Or.inr (Or.inl rfl))]; exact row0_cast _ _
  · rw [V3_v31, W2_of_ne m ρ c main_arg8 (by decide), W1_arg m ρ c main_arg8 (Or.inr (Or.inr rfl))]; exact row0_cast _ _

end Cert.KernelIdeal.HostReads

end
-- ==== Proof.RefProj.lean ====
/-
  The reference's per-edge attention, read entry by entry.  Each edge has ONE key, so its softmax weight is
  exp(s − max s) / Σ exp(s − max s) over a single score s; whenever s is a real number this is exp 0 / exp 0 = 1 and
  the attention output is the value projection itself.  The score is a real number because it is a finite sum of
  products of sums of products of entries of the inputs — all real under the precondition — divided by √32 ≠ 0.
  With the weight gone, the reference's per-edge result is `Spec.projArr` of the gathered rows, the transposed value
  and output matrices and the two bias vectors.
-/
import proofs.«173881_j8048768713043_2_alg».proof.Proof.Gen.ReferenceIdeal.Read
import proofs.«173881_j8048768713043_2_alg».proof.Proof.Spec
import Idealize.ShloMosaic.Lib.ValueIdx
import Idealize.ShloMosaic.PureOps.Ideal.Laws
import Idealize.ShloMosaic.PureOps.Reduce

set_option maxRecDepth 16384

noncomputable section

open Idealize.ShloMosaic Idealize.ShloMosaic.TcCoe Idealize.SL.Sem Idealize.ShloMosaic.ValueIdx

namespace Cert.ReferenceIdeal.RefProj

open Cert.ReferenceIdeal Cert.ReferenceIdeal.Gen Cert.ReferenceIdeal.Read Cert.Spec

variable (x0 x1 : (⟨S50000x128, .f32⟩ : BufTy).Contents (Elt Ideal)) (x2 : (⟨S2x800000, .i32⟩ : BufTy).Contents (Elt Ideal))
  (x3 : (⟨S384x128, .f32⟩ : BufTy).Contents (Elt Ideal)) (x4 : (⟨S384, .f32⟩ : BufTy).Contents (Elt Ideal))
  (x5 : (⟨S128x128, .f32⟩ : BufTy).Contents (Elt Ideal)) (x6 : (⟨S128, .f32⟩ : BufTy).Contents (Elt Ideal))

/-! ## Every score is a real number -/

/-- A gathered row is a row of the operand. -/
theorem real_v10 (h1 : AllReal (x1 : S50000x128.Idx → EReal)) (i : S800000x128.Idx) :
    ∃ r : ℝ, val_main_v10 (F := Ideal) x1 x2 i = (r : EReal) := by
  show ∃ r : ℝ, x1 _ = (r : EReal)
  exact h1 _

theorem real_v17 (h0 : AllReal (x0 : S50000x128.Idx → EReal)) (i : S800000x128.Idx) :
    ∃ r : ℝ, val_main_v17 (F := Ideal) x0 x2 i = (r : EReal) := by
  show ∃ r : ℝ, x0 _ = (r : EReal)
  exact h0 _

theorem real_v24 (h3 : AllReal (x3 : S384x128.Idx → EReal)) (i : S128x128.Idx) :
    ∃ r : ℝ, val_main_v24 (F := Ideal) x3 i = (r : EReal) := by
  rw [val_main_v24_apply, val_main_v18_apply]; exact h3 _

theorem real_v30 (h3 : AllReal (x3 : S384x128.Idx → EReal)) (i : S128x128.Idx) :
    ∃ r : ℝ, val_main_v30 (F := Ideal) x3 i = (r : EReal) := by
  rw [val_main_v30_apply, val_main_v19_apply]; exact h3 _

theorem real_v27 (h4 : AllReal (x4 : S384.Idx → EReal)) (i : S800000x128.Idx) :
    ∃ r : ℝ, val_main_v27 (F := Ideal) x4 i = (r : EReal) := by
  rw [val_main_v27_apply, val_main_v26_apply, val_main_v21_apply]; exact h4 _

theorem real_v33 (h4 : AllReal (x4 : S384.Idx → EReal)) (i : S800000x128.Idx) :
    ∃ r : ℝ, val_main_v33 (F := Ideal) x4 i = (r : EReal) := by
  rw [val_main_v33_apply, val_main_v32_apply, val_main_v22_apply]; exact h4 _

/-- The query projection of an edge. -/
theorem real_v28 (h1 : AllReal (x1 : S50000x128.Idx → EReal)) (h3 : AllReal (x3 : S384x128.Idx → EReal))
    (h4 : AllReal (x4 : S384.Idx → EReal)) (i : S800000x128.Idx) :
    ∃ r : ℝ, val_main_v28 (F := Ideal) x1 x2 x3 x4 i = (r : EReal) := by
  rw [val_main_v28_apply, Ideal.addf_def, val_main_v25_apply]
  exact real_add (real_sum _ _ fun k _ => real_mul (real_v10 x1 x2 h1 _) (real_v24 x3 h3 _)) (real_v27 x4 h4 _)

/-- The key projection of an edge. -/
theorem real_v34 (h0 : AllReal (x0 : S50000x128.Idx → EReal)) (h3 : AllReal (x3 : S384x128.Idx → EReal))
    (h4 : AllReal (x4 : S384.Idx → EReal)) (i : S800000x128.Idx) :
    ∃ r : ℝ, val_main_v34 (F := Ideal) x0 x2 x3 x4 i = (r : EReal) := by
  rw [val_main_v34_apply, Ideal.addf_def, val_main_v31_apply]
  exact real_add (real_sum _ _ fun k _ => real_mul (real_v17 x0 x2 h0 _) (real_v30 x3 h3 _)) (real_v33 x4 h4 _)

/-- The score of an edge's head: the head's dot product over √32. -/
theorem real_v47 (h0 : AllReal (x0 : S50000x128.Idx → EReal)) (h1 : AllReal (x1 : S50000x128.Idx → EReal))
    (h3 : AllReal (x3 : S384x128.Idx → EReal)) (h4 : AllReal (x4 : S384.Idx → EReal)) (i : S800000x4x1.Idx) :
    ∃ r : ℝ, val_main_v47 (F := Ideal) x0 x1 x2 x3 x4 i = (r : EReal) := by
  rw [val_main_v47_apply, val_main_v44_apply, val_main_v46_apply, val_main_v45_apply, val_main_cst_3_apply,
    Ideal.hostDivf_def, Ideal.hostUnary_sqrt_def, Ideal.ofBits_def, val_main_v43_apply, val_main_cst_apply,
    Ideal.ofBits_def, Ideal.ofBits_zero_f32, zero_add]
  refine real_div (real_sum _ _ fun k _ => ?_) sqrt32_ne_zero
  rw [val_main_v42_apply, Ideal.mulf_def, val_main_v29_apply, val_main_v35_apply]
  exact real_mul (real_v28 x1 x2 x3 x4 h1 h3 h4 _) (real_v34 x0 x2 x3 x4 h0 h3 h4 _)

/-! ## The weight over the one key is 1 -/

theorem univ_fin1 : (Finset.univ : Finset (Fin 1)) = {0} := by decide

/-- A running maximum over a one-element axis takes that element once. -/
theorem fold1 (f : Fin 1 → EReal) (b : EReal) :
    (Finset.univ : Finset (Fin 1)).fold (FloatOps.maximumf (F := Ideal) (φ := .f32)) b f = max (f 0) b := by
  rw [univ_fin1, Finset.fold_singleton]; rfl

/-- The running maximum of a head's one score. -/
theorem v50_eq (i : S800000x4x1.Idx) :
    val_main_v50 (F := Ideal) x0 x1 x2 x3 x4 (idx_main_v51 i) = val_main_v47 (F := Ideal) x0 x1 x2 x3 x4 i := by
  rw [val_main_v50_apply, val_main_v49_apply, val_main_cst_5_apply, Ideal.maximumf_def, Ideal.ofBits_def]
  unfold val_main_v48
  rw [Host.reduce_eq_fold_single (FloatOps.maximumf (F := Ideal) (φ := .f32)) (val_main_v47 (F := Ideal) x0 x1 x2 x3 x4)
    (val_main_cst_4 (F := Ideal)) reducesTo_S800000x4x1_S800000x4_d2 (by decide) h_S_ (idx_main_v51 i)]
  refine (congrArg (max (Ideal.ofBits .f32 0xFF800000#32)) (fold1 _ _)).trans ?_
  rw [val_main_cst_4_apply, Ideal.ofBits_def, ofBits_neg_inf, max_single]
  exact ix_congr (val_main_v47 (F := Ideal) x0 x1 x2 x3 x4) (fun a => match a with
    | ⟨0, _⟩ => rfl
    | ⟨1, _⟩ => rfl
    | ⟨2, _⟩ => by have h2 : (i 2).val < 1 := (i 2).isLt; show 0 = (i 2).val; omega)

/-- The shifted exponential of a real score is exp 0 = 1. -/
theorem v53_eq (i : S800000x4x1.Idx) (hs : ∃ r : ℝ, val_main_v47 (F := Ideal) x0 x1 x2 x3 x4 i = (r : EReal)) :
    val_main_v53 (F := Ideal) x0 x1 x2 x3 x4 i = 1 := by
  obtain ⟨s, hs⟩ := hs
  rw [val_main_v53_apply, val_main_v52_apply, val_main_v51_apply, v50_eq, hs, Ideal.hostUnary_exp_def, Ideal.subf_def,
    ← EReal.coe_sub, sub_self, Ideal.exp_coe, Real.exp_zero, EReal.coe_one]

/-- So the softmax weight of a real score is 1 / (0 + 1) = 1. -/
theorem v56_eq (i : S800000x4x1.Idx) (hs : ∀ j : S800000x4x1.Idx, ∃ r : ℝ, val_main_v47 (F := Ideal) x0 x1 x2 x3 x4 j = (r : EReal)) :
    val_main_v56 (F := Ideal) x0 x1 x2 x3 x4 i = 1 := by
  rw [val_main_v56_apply, val_main_v55_apply, val_main_v54_apply, val_main_cst_6_apply, Ideal.hostDivf_def, Ideal.ofBits_def,
    Ideal.ofBits_zero_f32, zero_add, Fin.sum_univ_one, v53_eq x0 x1 x2 x3 x4 i (hs i), v53_eq x0 x1 x2 x3 x4 _ (hs _), div_one_one]

/-! ## The attention output is the value projection -/

theorem attn_eq (h0 : AllReal (x0 : S50000x128.Idx → EReal)) (h1 : AllReal (x1 : S50000x128.Idx → EReal))
    (h3 : AllReal (x3 : S384x128.Idx → EReal)) (h4 : AllReal (x4 : S384.Idx → EReal)) :
    val_main_v59 (F := Ideal) x0 x1 x2 x3 x4 = val_main_v40 (F := Ideal) x0 x2 x3 x4 := by
  funext i
  rw [val_main_v59_apply, val_main_v58_apply, val_main_v57_apply, Ideal.mulf_def,
    v56_eq x0 x1 x2 x3 x4 _ (real_v47 x0 x1 x2 x3 x4 h0 h1 h3 h4), one_mul, val_main_v41_apply]
  have hi0 : (i 0).val < 800000 := (i 0).isLt
  have hi1 : (i 1).val < 128 := (i 1).isLt
  exact ix_congr (val_main_v40 (F := Ideal) x0 x2 x3 x4) (fun a => match a with
    | ⟨0, _⟩ => by
      show ((((i 0).val * 128 + (i 1).val) / 128 * 4 + ((i 0).val * 128 + (i 1).val) / 32 % 4) * 32 + ((i 0).val * 128 + (i 1).val) % 32) / 128 = (i 0).val
      omega
    | ⟨1, _⟩ => by
      show ((((i 0).val * 128 + (i 1).val) / 128 * 4 + ((i 0).val * 128 + (i 1).val) / 32 % 4) * 32 + ((i 0).val * 128 + (i 1).val) % 32) % 128 = (i 1).val
      omega)

/-! ## The per-edge result -/

/-- The reference's per-edge result is the projection of its gathered rows. -/
theorem v64_eq (h0 : AllReal (x0 : S50000x128.Idx → EReal)) (h1 : AllReal (x1 : S50000x128.Idx → EReal))
    (h3 : AllReal (x3 : S384x128.Idx → EReal)) (h4 : AllReal (x4 : S384.Idx → EReal)) :
    val_main_v64 (F := Ideal) x0 x1 x2 x3 x4 x5 x6 = projArr (val_main_v17 (F := Ideal) x0 x2) (val_main_v36 (F := Ideal) x3) (val_main_v60 (F := Ideal) x5) (val_main_v23 (F := Ideal) x4) x6 := by
  funext i
  rw [val_main_v64_apply, val_main_v61_apply, Ideal.addf_def, attn_eq x0 x1 x2 x3 x4 h0 h1 h3 h4]
  unfold projArr projAt
  refine congrArg₂ (· + ·) (Finset.sum_congr rfl fun j _ => ?_) ?_
  · rw [val_main_v40_apply, val_main_v37_apply, Ideal.addf_def, val_main_v39_apply, val_main_v38_apply]
    refine congrArg₂ (· * ·) (congrArg₂ (· + ·) (Finset.sum_congr rfl fun k _ => ?_) ?_) ?_
    · exact congrArg₂ (· * ·)
        (ix_congr (val_main_v17 (F := Ideal) x0 x2) (fun a => match a with | ⟨0, _⟩ => rfl | ⟨1, _⟩ => rfl))
        (ix_congr (val_main_v36 (F := Ideal) x3) (fun a => match a with | ⟨0, _⟩ => rfl | ⟨1, _⟩ => rfl))
    · exact ix_congr (val_main_v23 (F := Ideal) x4) (fun a => match a with | ⟨0, _⟩ => rfl)
    · exact ix_congr (val_main_v60 (F := Ideal) x5) (fun a => match a with | ⟨0, _⟩ => rfl | ⟨1, _⟩ => rfl)
  · rw [val_main_v63_apply, val_main_v62_apply]
    exact ix_congr x6 (fun a => match a with | ⟨0, _⟩ => rfl)

end Cert.ReferenceIdeal.RefProj

end
-- ==== Proof.RefLN.lean ====
/-
  The reference's last stretch — residual, mean, variance, rsqrt, scale and shift, as host operations on whole
  arrays — read entry by entry: it is `Spec.lnArr` of the scatter-mean aggregate, the residual, the scale and the
  shift.  A host sum starts from the float zero, which is the real 0; a host quotient and a host rsqrt are the same
  functions of extended reals as the kernel's.
-/
import proofs.«173881_j8048768713043_2_alg».proof.Proof.Gen.ReferenceIdeal.Read
import proofs.«173881_j8048768713043_2_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefLN

open Cert.ReferenceIdeal Cert.ReferenceIdeal.Read Cert.Spec

variable (x0 x1 : (⟨S50000x128, .f32⟩ : BufTy).Contents (Elt Ideal)) (x2 : (⟨S2x800000, .i32⟩ : BufTy).Contents (Elt Ideal))
  (x3 : (⟨S384x128, .f32⟩ : BufTy).Contents (Elt Ideal)) (x4 : (⟨S384, .f32⟩ : BufTy).Contents (Elt Ideal))
  (x5 : (⟨S128x128, .f32⟩ : BufTy).Contents (Elt Ideal)) (x6 x7 x8 : (⟨S128, .f32⟩ : BufTy).Contents (Elt Ideal))

/-- The scatter-mean aggregate the normalisation starts from. -/
local notation "AGG" => (val_main_v76 (F := Ideal) x0 x1 x2 x3 x4 x5 x6 : S50000x128.Idx → EReal)

theorem h77 (r : Fin 50000) (c : Fin 128) :
    val_main_v77 (F := Ideal) x0 x1 x2 x3 x4 x5 x6 (ix2 r c) = lnH AGG x1 r c := by
  rw [val_main_v77_apply, Ideal.addf_def]
  unfold lnH
  rfl

theorem h78 (r : Fin 50000) :
    val_main_v78 (F := Ideal) x0 x1 x2 x3 x4 x5 x6 (ix1 r) = ∑ c : Fin 128, lnH AGG x1 r c := by
  rw [val_main_v78_apply, val_main_cst_11_apply, Ideal.ofBits_def, Ideal.ofBits_zero_f32, zero_add]
  refine Finset.sum_congr rfl fun k _ => ?_
  exact (ix_congr (val_main_v77 (F := Ideal) x0 x1 x2 x3 x4 x5 x6) (j := idx_main_v78 (ix1 r) k) (k := ix2 r k) (fun a => match a with | ⟨0, _⟩ => rfl | ⟨1, _⟩ => rfl)).trans (h77 x0 x1 x2 x3 x4 x5 x6 r k)

theorem h81 (r : Fin 50000) (u : Fin 1) :
    val_main_v81 (F := Ideal) x0 x1 x2 x3 x4 x5 x6 (ix2 r u) = lnMu AGG x1 r := by
  rw [val_main_v81_apply, val_main_v79_apply, val_main_v80_apply, val_main_cst_12_apply, Ideal.hostDivf_def, Ideal.ofBits_def,
    ix_congr (val_main_v78 (F := Ideal) x0 x1 x2 x3 x4 x5 x6) (j := idx_main_v79 (ix2 r u)) (k := ix1 r) (fun a => match a with | ⟨0, _⟩ => rfl), h78]
  unfold lnMu
  rfl

theorem h83 (r : Fin 50000) (c : Fin 128) :
    val_main_v83 (F := Ideal) x0 x1 x2 x3 x4 x5 x6 (ix2 r c) = lnH AGG x1 r c - lnMu AGG x1 r := by
  rw [val_main_v83_apply, val_main_v82_apply, Ideal.subf_def, h77,
    ix_congr (val_main_v81 (F := Ideal) x0 x1 x2 x3 x4 x5 x6) (j := idx_main_v82 (ix2 r c)) (k := ix2 r (0 : Fin 1)) (fun a => match a with | ⟨0, _⟩ => rfl | ⟨1, _⟩ => rfl), h81]

theorem h85 (r : Fin 50000) :
    val_main_v85 (F := Ideal) x0 x1 x2 x3 x4 x5 x6 (ix1 r)
      = ∑ c : Fin 128, (lnH AGG x1 r c - lnMu AGG x1 r) * (lnH AGG x1 r c - lnMu AGG x1 r) := by
  rw [val_main_v85_apply, val_main_cst_13_apply, Ideal.ofBits_def, Ideal.ofBits_zero_f32, zero_add]
  refine Finset.sum_congr rfl fun k _ => ?_
  refine (ix_congr (val_main_v84 (F := Ideal) x0 x1 x2 x3 x4 x5 x6) (j := idx_main_v85 (ix1 r) k) (k := ix2 r k) (fun a => match a with | ⟨0, _⟩ => rfl | ⟨1, _⟩ => rfl)).trans ?_
  rw [val_main_v84_apply, Ideal.mulf_def, h83]

theorem h88 (r : Fin 50000) (u : Fin 1) :
    val_main_v88 (F := Ideal) x0 x1 x2 x3 x4 x5 x6 (ix2 r u) = lnVar AGG x1 r := by
  rw [val_main_v88_apply, val_main_v86_apply, val_main_v87_apply, val_main_cst_14_apply, Ideal.hostDivf_def, Ideal.ofBits_def,
    ix_congr (val_main_v85 (F := Ideal) x0 x1 x2 x3 x4 x5 x6) (j := idx_main_v86 (ix2 r u)) (k := ix1 r) (fun a => match a with | ⟨0, _⟩ => rfl), h85]
  unfold lnVar
  rfl

theorem h90 (r : Fin 50000) (c : Fin 128) :
    val_main_v90 (F := Ideal) x0 x1 x2 x3 x4 x5 x6 (ix2 r c) = lnH AGG x1 r c - lnMu AGG x1 r := by
  rw [val_main_v90_apply, val_main_v89_apply, Ideal.subf_def, h77,
    ix_congr (val_main_v81 (F := Ideal) x0 x1 x2 x3 x4 x5 x6) (j := idx_main_v89 (ix2 r c)) (k := ix2 r (0 : Fin 1)) (fun a => match a with | ⟨0, _⟩ => rfl | ⟨1, _⟩ => rfl), h81]

theorem h93 (r : Fin 50000) (u : Fin 1) :
    val_main_v93 (F := Ideal) x0 x1 x2 x3 x4 x5 x6 (ix2 r u)
      = Ideal.rsqrt (lnVar AGG x1 r + Ideal.ofBits .f32 0x3727C5AC#32) := by
  rw [val_main_v93_apply, val_main_v92_apply, val_main_v91_apply, val_main_cst_15_apply, h88,
    Ideal.hostUnary_rsqrt_def, Ideal.addf_def, Ideal.ofBits_def]

/-- Entry (r, c) of the reference's result is the normalised entry of node r's row. -/
theorem h101 (r : Fin 50000) (c : Fin 128) :
    val_main_v101 (F := Ideal) x0 x1 x2 x3 x4 x5 x6 x7 x8 (ix2 r c) = lnAt AGG x1 x7 x8 r c := by
  rw [val_main_v101_apply, val_main_v98_apply, val_main_v95_apply, val_main_v94_apply, val_main_v97_apply,
    val_main_v96_apply, val_main_v100_apply, val_main_v99_apply, h90,
    ix_congr (val_main_v93 (F := Ideal) x0 x1 x2 x3 x4 x5 x6) (j := idx_main_v94 (ix2 r c)) (k := ix2 r (0 : Fin 1)) (fun a => match a with | ⟨0, _⟩ => rfl | ⟨1, _⟩ => rfl), h93,
    ix_congr x7 (j := idx_main_v96 (idx_main_v97 (ix2 r c))) (k := ix1 c) (fun a => match a with | ⟨0, _⟩ => rfl),
    ix_congr x8 (j := idx_main_v99 (idx_main_v100 (ix2 r c))) (k := ix1 c) (fun a => match a with | ⟨0, _⟩ => rfl),
    Ideal.addf_def, Ideal.mulf_def, Ideal.mulf_def]
  unfold lnAt
  rfl

/-- The reference's result array is the normalisation of the aggregate, the residual, the scale and the shift. -/
theorem ref_ln : val_main_v101 (F := Ideal) x0 x1 x2 x3 x4 x5 x6 x7 x8 = lnArr AGG x1 x7 x8 := by
  funext i
  refine (ix_congr (val_main_v101 (F := Ideal) x0 x1 x2 x3 x4 x5 x6 x7 x8) (j := i) (k := ix2 (⟨(i 0).val, (i 0).isLt⟩ : Fin 50000) (⟨(i 1).val, (i 1).isLt⟩ : Fin 128))
    (fun a => match a with | ⟨0, _⟩ => rfl | ⟨1, _⟩ => rfl)).trans ?_
  exact h101 x0 x1 x2 x3 x4 x5 x6 x7 x8 _ _

end Cert.ReferenceIdeal.RefLN

end
-- ==== Proof.Finite.lean ====
/-
  The precondition read back: "every float input is finite" is, for each input, the conjunction over all its
  entries of |x| < +∞, and all eight conjunctions are and-ed.  An extended real whose absolute value is below +∞ is
  a real number.  So under the precondition every entry of the four inputs the attention scores are made of — the
  two node-feature arrays and the input projection's weight and bias — is a real number.
-/
import proofs.«173881_j8048768713043_2_alg».proof.Pre_finite_inputs
import proofs.«173881_j8048768713043_2_alg».proof.Proof.Gen.Pre_finite_inputs
import proofs.«173881_j8048768713043_2_alg».proof.Proof.Spec
import Idealize.ShloMosaic.Lib.ReduceAll
import Idealize.ShloMosaic.Lib.ValueIdx
import Idealize.ShloMosaic.PureOps.Ideal.Laws

set_option maxRecDepth 16384

noncomputable section

open Idealize.ShloMosaic Idealize.ShloMosaic.ValueIdx

namespace Cert.Pre_finite_inputs.Decode

open Cert.Pre_finite_inputs Cert.Pre_finite_inputs.Gen Cert.Spec

instance : Subsingleton S_.Idx := ⟨fun a b => funext fun d => d.elim0⟩

/-- An extended real with |x| < +∞ is a real number. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One input's conjunct: if "all |x| < +∞" came out true, every entry of x is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) : AllReal x := by
  intro i
  have e := Host.reduce_andi_all _ _ hr hu ValueIdx.ix0 h i
  have e' : Ideal.cmp .olt (max (x i) (-(x i))) (Ideal.ofBits .f32 0x7F800000#32) = 1#1 := e
  rw [ofBits_pos_inf] at e'
  exact real_of_abs_lt _ e'

/-- Under the precondition the node features and the input projection's weight and bias are real-valued. -/
theorem reals_of_pre (x0 x1 : FVec Ideal S50000x128 .f32) (x2 : IVec S2x800000 32) (x3 : FVec Ideal S384x128 .f32)
    (x4 : FVec Ideal S384 .f32) (x5 : FVec Ideal S128x128 .f32) (x6 x7 x8 : FVec Ideal S128 .f32)
    (h : Cert.Pre_finite_inputs.fn (F := Ideal) x0 x1 x2 x3 x4 x5 x6 x7 x8 = (fun _ => 1#1)) :
    AllReal x0 ∧ AllReal x1 ∧ AllReal x3 ∧ AllReal x4 := by
  have h0 := congrFun h ValueIdx.ix0
  dsimp only [fn, fn_part1, fn_part2] at h0
  obtain ⟨h33, -⟩ := IntOp.andi_eq_one.1 (show IntOp.andi _ _ = 1#1 from h0)
  obtain ⟨h28, -⟩ := IntOp.andi_eq_one.1 (show IntOp.andi _ _ = 1#1 from h33)
  obtain ⟨h23, -⟩ := IntOp.andi_eq_one.1 (show IntOp.andi _ _ = 1#1 from h28)
  obtain ⟨h18, -⟩ := IntOp.andi_eq_one.1 (show IntOp.andi _ _ = 1#1 from h23)
  obtain ⟨h13, h17⟩ := IntOp.andi_eq_one.1 (show IntOp.andi _ _ = 1#1 from h18)
  obtain ⟨h8, h12⟩ := IntOp.andi_eq_one.1 (show IntOp.andi _ _ = 1#1 from h13)
  obtain ⟨h3, h7⟩ := IntOp.andi_eq_one.1 (show IntOp.andi _ _ = 1#1 from h8)
  exact ⟨allReal_of_all x0 _ _ _ h3, allReal_of_all x1 _ _ _ h7, allReal_of_all x3 _ _ _ h12, allReal_of_all x4 _ _ _ h17⟩

end Cert.Pre_finite_inputs.Decode

end
-- ==== Proof.lean ====
/-
  The kernel and the reference compute, on extended reals, the same function of the nine arguments.

  Both gather each edge's source row, project it (value projection, then output projection, with biases), average
  the projected rows over each destination node, add the node's own features and layer-normalise each row.  The
  kernel does the projection and the normalisation in two tiled regions and skips the attention weights altogether;
  the reference computes a softmax over each edge's single key.  Under the precondition every score is a real
  number, so every softmax weight is exp 0 / exp 0 = 1 and the reference's attention output is the value projection:
  from there on the two programs apply the same operations to equal arrays.  Matrix products and row sums are exact
  sums at this instance, a change of float format is the identity, so tiling and bf16 operands change nothing.

  The three frames: the two kernel programs' runs are the generated segment runs; the reference's is its generated
  straight-line run.  The idealisation rewrote no operation, so nothing is owed for it.
-/
import proofs.«173881_j8048768713043_2_alg».proof.Defs
import proofs.«173881_j8048768713043_2_alg».proof.Proof.Gen.Kernel
import proofs.«173881_j8048768713043_2_alg».proof.Proof.Gen.Kernel.Skeleton
import proofs.«173881_j8048768713043_2_alg».proof.Proof.Gen.Kernel.Launch
import proofs.«173881_j8048768713043_2_alg».proof.Proof.Gen.Kernel.Points
import proofs.«173881_j8048768713043_2_alg».proof.Proof.Gen.Kernel.Frame
import proofs.«173881_j8048768713043_2_alg».proof.Proof.Gen.KernelIdeal
import proofs.«173881_j8048768713043_2_alg».proof.Proof.Gen.KernelIdeal.Skeleton
import proofs.«173881_j8048768713043_2_alg».proof.Proof.Gen.KernelIdeal.Launch
import proofs.«173881_j8048768713043_2_alg».proof.Proof.Gen.KernelIdeal.Points
import proofs.«173881_j8048768713043_2_alg».proof.Proof.Gen.KernelIdeal.Frame
import proofs.«173881_j8048768713043_2_alg».proof.Proof.Gen.ReferenceIdeal
import proofs.«173881_j8048768713043_2_alg».proof.Proof.Gen.Pre_finite_inputs
import proofs.«173881_j8048768713043_2_alg».proof.Proof.Gen.ReferenceIdeal.Run
import proofs.«173881_j8048768713043_2_alg».proof.Proof.Gen.ReferenceIdeal.Read
import proofs.«173881_j8048768713043_2_alg».proof.Proof.KRun
import proofs.«173881_j8048768713043_2_alg».proof.Proof.KHost
import proofs.«173881_j8048768713043_2_alg».proof.Proof.RefProj
import proofs.«173881_j8048768713043_2_alg».proof.Proof.RefLN
import proofs.«173881_j8048768713043_2_alg».proof.Proof.RefTail
import proofs.«173881_j8048768713043_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the normalisation of
    the scatter-mean of the projected gathered rows. -/
theorem algebraic : Cert.algebraic_KernelIdeal_ReferenceIdeal := by
  intro m ρ m' ρ' hpre hagree
  refine ⟨fun c => Cert.KernelIdeal.Gen.W4 m ρ c (Proc.devRef .tc Cert.KernelIdeal.main_v32),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r3, r4⟩ := Cert.Pre_finite_inputs.Decode.reals_of_pre _ _ _ _ _ _ _ _ _ (hpre c)
  rw [Cert.ReferenceIdeal.Read.val_main_v101_eq, a0, a1, a2, a3, a4, a5, a6, a7, a8, Cert.ReferenceIdeal.RefLN.ref_ln,
    Cert.ReferenceIdeal.RefTail.v76_eq, Cert.ReferenceIdeal.RefProj.v64_eq _ _ _ _ _ _ _ r0 r1 r3 r4]
  exact (Cert.KernelIdeal.HostReads.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
